-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel

variable [Facts]

def fn {F : FTy → Type} [FloatOps F] (main_arg0 : FVec F S128x4096 .f32) (main_arg1 : FVec F S128x4096 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  main_v8
-- ==== Kernel.lean ====
abbrev S128x4096 : Shape := ⟨2, ![128, 4096]⟩
abbrev S2x8x128 : Shape := ⟨3, ![2, 8, 128]⟩
abbrev S1x8x128 : Shape := ⟨3, ![1, 8, 128]⟩
abbrev S64x4096 : Shape := ⟨2, ![64, 4096]⟩
abbrev S64 : Shape := ⟨1, ![64]⟩
abbrev S64x1 : Shape := ⟨2, ![64, 1]⟩
abbrev S64x128 : Shape := ⟨2, ![64, 128]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 11
  | .vmem => 4
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S1x8x128, .f32⟩
  | .local _ .vmem, ⟨3, _⟩ => ⟨S1x8x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![2], ![false]⟩

def k0_mult1 (i : grid0.Coords) : BitVec 32 :=
  let arg0 : BitVec 32 := BitVec.ofNat 32 (i 0).val
  let c64_i32 : BitVec 32 := 64#32
  let v0 : BitVec 32 := Scalar.muli arg0 c64_i32
  v0
def k0_off1 (i : grid0.Coords) : Fin 2 → Nat :=
  let arg0 : BitVec 32 := BitVec.ofNat 32 (i 0).val
  let c64_i32 : BitVec 32 := 64#32
  let v0 : BitVec 32 := Scalar.muli arg0 c64_i32
  let v1 : BitVec 32 := v0
  let v6 : Index := Scalar.indexCast v1
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x4096_S128x4096_0_0 : ∀ a, (![0, 0] : Fin 2 → Nat) a + S128x4096.size a ≤ S128x4096.size a
  h_S128x4096 : 0 < S128x4096.numel
  h_S64x4096 : 0 < S64x4096.numel
  reduces_S64x4096_S64 : S64x4096.Reduces [1] S64
  shapeCasts_S64_S64x1 : S64.ShapeCasts S64x1
  bitsLt_bf16_f32 : FTy.bits .bf16 < FTy.bits .f32
  broadcasts_S64x1_S64x128 : S64x1.Broadcasts S64x128
  reduces_S64x128_S64 : S64x128.Reduces [1] S64
  reduces_S64x1_S1 : S64x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S64x4096_S128x4096_S64x128_1_1_0_0_n_n_wf : DotDims.WF S64x4096 S128x4096 S64x128 [1] [1] [0] [0] [] []
  hrank0 : 0 < grid0.rank
  k0_mult1_dvd : ∀ i : grid0.Coords, 64 ∣ (k0_mult1 i).toNat
  k0_off1_inb : ∀ i : grid0.Coords, ∀ a, (k0_off1 i) a + S64x4096.size a ≤ S128x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def dot_S64x4096_S128x4096_S64x128_1_1_0_0_n_n : DotDims S64x4096 S128x4096 S64x128 where
  lhsContracting := [1]
  rhsContracting := [1]
  lhsNonContracting := [0]
  rhsNonContracting := [0]
  lhsBatch := []
  rhsBatch := []
  wf := dot_S64x4096_S128x4096_S64x128_1_1_0_0_n_n_wf

abbrev win0_0 : Pipeline.Window sig grid0 :=
  Pipeline.Window.ofSpec (Memref.whole main_arg0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x4096 : Shape := ⟨2, ![128, 4096]⟩
abbrev S_ : Shape := ⟨0, ![]⟩
abbrev S128 : Shape := ⟨1, ![128]⟩
abbrev S4096x128 : Shape := ⟨2, ![4096, 128]⟩
abbrev S128x128 : Shape := ⟨2, ![128, 128]⟩
abbrev S128x1 : Shape := ⟨2, ![128, 1]⟩

abbrev nBuf : Space → Nat
  | .hbm => 28
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S128, .f32⟩
  | .hbm, ⟨6, _⟩ => ⟨S4096x128, .f32⟩
  | .hbm, ⟨7, _⟩ => ⟨S128x128, .f32⟩
  | .hbm, ⟨8, _⟩ => ⟨S128x1, .f32⟩
  | .hbm, ⟨9, _⟩ => ⟨S128x128, .f32⟩
  | .hbm, ⟨10, _⟩ => ⟨S128x128, .f32⟩
  | .hbm, ⟨11, _⟩ => ⟨S128x4096, .f32⟩
  | .hbm, ⟨12, _⟩ => ⟨S128x4096, .f32⟩
  | .hbm, ⟨13, _⟩ => ⟨S_, .f32⟩
  | .hbm, ⟨14, _⟩ => ⟨S128, .f32⟩
  | .hbm, ⟨15, _⟩ => ⟨S4096x128, .f32⟩
  | .hbm, ⟨16, _⟩ => ⟨S128x128, .f32⟩
  | .hbm, ⟨17, _⟩ => ⟨S128x1, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S128x4096_S128_d1 : S128x4096.ReducesTo [1] S128
  h_S_ : 0 < S_.numel
  transposes_S128x4096_S4096x128_1_0 : S128x4096.Transposes [1, 0] S4096x128
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  reducesTo_S128x128_S_d0_1 : S128x128.ReducesTo [0, 1] S_
  dot_S128x4096_S4096x128_S128x128_1_0_0_1_n_n_wf : DotDims.WF S128x4096 S4096x128 S128x128 [1] [0] [0] [1] [] []

variable [Facts₀]

def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

class Facts : Prop extends Facts₀ where

variable [Facts]
-- ==== Proof.PairwiseSpec.lean ====
/-
  The specification: the pairwise divergence loss as one function of the two argument tables.

  For a table X of 128 rows of 4096 extended reals, the divergence of row r from row j is
      D_X(r, j) = Σ_d X[r,d]·log X[r,d] − Σ_d X[r,d]·log X[j,d],
  and the loss of two tables X, Y is
      (c + (0 + Σ_{r,j} |D_X(r,j) − D_Y(r,j)|)) / K
  for two literal constants c and K.  The double sum over the 128 × 128 pairs may be taken all at
  once, or as the sum of two halves of 64 rows each: addition on the extended reals is commutative and
  associative, so the two groupings agree whatever the entries are (no finiteness is needed).
-/
import Idealize.ShloMosaic.PureOps.Ideal
import Idealize.ShloMosaic.Lib.ValueIdx

noncomputable section

namespace Cert.PairwiseSpec

open Idealize.ShloMosaic Idealize.ShloMosaic.ValueIdx

/-- A table of 128 rows of 4096 extended reals. -/
abbrev Table : Type := (⟨2, ![128, 4096]⟩ : Shape).Idx → EReal

/-- Row `r` of `X` against the logarithms of row `i`: `Σ_d X[r,d] · log X[i,d]`. -/
def rowLog (X : Table) (r i : Fin 128) : EReal := ∑ d : Fin 4096, X (ix2 r d) * Ideal.log (X (ix2 i d))

/-- The divergence of row `r` from row `j`. -/
def divergence (X : Table) (r j : Fin 128) : EReal := rowLog X r r - rowLog X r j

/-- The absolute difference of the two tables' divergences at the pair `(r, j)`; the absolute value of an
    extended real `a` is `max a (-a)`. -/
def gap (X Y : Table) (r j : Fin 128) : EReal :=
  max (divergence X r j - divergence Y r j) (-(divergence X r j - divergence Y r j))

/-- Row `r` of half `t` of the table: rows 0–63 are half 0, rows 64–127 half 1. -/
def rowOf (t : Fin 2) (r : Fin 64) : Fin 128 := ⟨64 * t.val + r.val, by omega⟩

/-- The gaps of one half's 64 rows against all 128 rows, summed. -/
def halfTotal (X Y : Table) (t : Fin 2) : EReal := ∑ r : Fin 64, ∑ j : Fin 128, gap X Y (rowOf t r) j

/-- The gaps of all 128 × 128 pairs, summed. -/
def total (X Y : Table) : EReal := ∑ r : Fin 128, ∑ j : Fin 128, gap X Y r j

/-- A sum over 128 rows is the sum over the two halves of 64 rows. -/
theorem sum_rows_eq_halves (f : Fin 128 → EReal) : ∑ r : Fin 128, f r = ∑ t : Fin 2, ∑ r : Fin 64, f (rowOf t r) := by
  rw [Fin.sum_univ_two]
  refine (Fin.sum_univ_add (a := 64) (b := 64) (fun i : Fin (64 + 64) => f i)).trans ?_
  exact congrArg₂ (· + ·)
    (Finset.sum_congr rfl fun r _ => congrArg f (Fin.ext (by simp [rowOf])))
    (Finset.sum_congr rfl fun r _ => congrArg f (Fin.ext (by simp [rowOf] <;> omega)))

/-- The total over all pairs is the sum of the two halves' totals. -/
theorem total_eq_halves (X Y : Table) : total X Y = ∑ t : Fin 2, halfTotal X Y t :=
  sum_rows_eq_halves fun r => ∑ j : Fin 128, gap X Y r j

/-- The loss from the summed gaps `s`: `(c + (0 + s)) / K`, the three constants kept as their binary words. -/
def lossOf (s : EReal) : EReal :=
  Ideal.div (Ideal.ofBits .f32 0x38D1B717#32 + (Ideal.ofBits .f32 0x00000000#32 + s)) (Ideal.ofBits .f32 0x46800000#32)

/-- The loss of two tables. -/
def loss (X Y : Table) : EReal := lossOf (total X Y)

end Cert.PairwiseSpec

end
-- ==== Proof.BlockPayload.lean ====
/-
  What one grid point's body computes, read at an index, over the extended reals.

  The body of the kernel at a point holds two whole tables `x0`, `x1` (128 × 4096) and the point's own
  64-row blocks `x7`, `x9` of them.  It forms, for each of its 64 rows `r` and each of the 128 rows `j`,
      |(Σ_d x7[r,d]·log x7[r,d] − Σ_d x7[r,d]·log x0[j,d]) − (Σ_d x9[r,d]·log x9[r,d] − Σ_d x9[r,d]·log x1[j,d])|,
  sums these over `j` (lanes) and then over `r` (sublanes), and spreads the one number over an 8 × 128 tile.
  The payload is cut here into named stages; each stage is read at an index by one small lemma.
-/
import proofs.«182119_j53927609369064_2_alg».proof.Proof.Gen.KernelIdeal.Skeleton
import proofs.«182119_j53927609369064_2_alg».proof.Proof.PairwiseSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The stages, at any float instance -/

section Stages
variable {F : FTy → Type} [FloatOps F]

/-- The column of a block's row sums `Σ_d x[r,d]·log x[r,d]`, kept as a 64 × 1 column. -/
def selfCol (x : Vec F S64x4096 .f32) : FVec F S64x1 .f32 :=
  shapeCast S64x1 (multiReduction .add [1] S64 (mulf x (log x)) 0x00000000#32 reduces_S64x4096_S64 (.inl rfl) rfl) shapeCasts_S64_S64x1

/-- The 64 × 128 products of the block's rows with the logarithms of all rows of the table `z`, contracted over
    the 4096 columns of both (the change of format on the way in is the identity over the extended reals). -/
def crossMat (x : Vec F S64x4096 .f32) (z : Vec F S128x4096 .f32) : FVec F S64x128 .f32 :=
  matmul dot_S64x4096_S128x4096_S64x128_1_1_0_0_n_n none (truncf .bf16 x bitsLt_bf16_f32) (truncf .bf16 (log z) bitsLt_bf16_f32)
    (constant S64x128 .f32 0x00000000#32)

/-- The divergences of the block's 64 rows from all 128 rows. -/
def divMat (x : Vec F S64x4096 .f32) (z : Vec F S128x4096 .f32) : FVec F S64x128 .f32 :=
  subf (broadcastTo S64x128 (selfCol x) broadcasts_S64x1_S64x128) (crossMat x z)

/-- The absolute differences of the two tables' divergences. -/
def gapMat (x0 x1 : Vec F S128x4096 .f32) (x7 x9 : Vec F S64x4096 .f32) : FVec F S64x128 .f32 :=
  absf (subf (divMat x7 x0) (divMat x9 x1))

/-- A 64 × 128 matrix summed along its lanes, then along its sublanes. -/
def blockSum (g : FVec F S64x128 .f32) : FVec F S1 .f32 :=
  multiReduction .add [0] S1
    (shapeCast S64x1 (multiReduction .add [1] S64 g 0x00000000#32 reduces_S64x128_S64 (.inl rfl) rfl) shapeCasts_S64_S64x1)
    0x00000000#32 reduces_S64x1_S1 (.inl rfl) rfl

/-- One number spread over an 8 × 128 tile. -/
def spread (v : FVec F S1 .f32) : FVec F S1x8x128 .f32 :=
  broadcastTo S1x8x128
    (shapeCast S1x1x1 (shapeCast S1x1x1 (shapeCast S1x1 v shapeCasts_S1_S1x1) shapeCasts_S1x1_S1x1x1) shapeCasts_S1x1x1_S1x1x1)
    broadcasts_S1x1x1_S1x8x128

/-- The body's stored value is the stages composed. -/
theorem pay_eq (x0 x1 : Vec F S128x4096 .f32) (x7 x9 : Vec F S64x4096 .f32) :
    k0_pay1 x0 x1 x7 x9 = spread (blockSum (gapMat x0 x1 x7 x9)) := rfl

end Stages

/-! ## The layout steps between the stages, read at an index -/

section Layout
variable {α : Type}

/-- A 64-entry vector viewed as a 64 × 1 column reads, at row `r`, the vector's entry `r`. -/
theorem column_apply (v : S64.Idx → α) (r : Fin 64) :
    shapeCast S64x1 v shapeCasts_S64_S64x1 (ix2 r (0 : Fin 1)) = v (ix1 r) :=
  shapeCast_apply v shapeCasts_S64_S64x1 (ix2 r (0 : Fin 1)) (ix1 r) (by
    rw [Shape.rowMajor_val_one, Shape.rowMajor_val_two]
    show r.val = r.val * 1 + 0
    omega)

/-- A 64 × 1 column spread over 128 lanes reads, at `(r, j)`, the column's row `r`. -/
theorem lanes_apply (v : S64x1.Idx → α) (r : Fin 64) (j : Fin 128) :
    broadcastTo S64x128 v broadcasts_S64x1_S64x128 (ix2 r j) = v (ix2 r (0 : Fin 1)) :=
  broadcastTo_apply v broadcasts_S64x1_S64x128 (ix2 r j) (ix2 r (0 : Fin 1)) (fun a => by
    match a with
    | ⟨0, _⟩ => show r.val = if (64 : Nat) = 1 then 0 else r.val; rw [if_neg (by decide)]
    | ⟨1, _⟩ => show 0 = if (1 : Nat) = 1 then 0 else j.val; rw [if_pos rfl])

/-- One number spread over an 8 × 128 tile reads that number everywhere: every intermediate shape has one entry. -/
theorem tile_apply (v : S1.Idx → α) (y : S1x8x128.Idx) :
    broadcastTo S1x8x128
      (shapeCast S1x1x1 (shapeCast S1x1x1 (shapeCast S1x1 v shapeCasts_S1_S1x1) shapeCasts_S1x1_S1x1x1) shapeCasts_S1x1x1_S1x1x1)
      broadcasts_S1x1x1_S1x8x128 y = v (ix1 (0 : Fin 1)) := by
  refine (broadcastTo_apply _ broadcasts_S1x1x1_S1x8x128 y (ix3 (0 : Fin 1) (0 : Fin 1) (0 : Fin 1)) (fun a => by
    match a with
    | ⟨0, _⟩ => show 0 = if (1 : Nat) = 1 then 0 else _; rw [if_pos rfl]
    | ⟨1, _⟩ => show 0 = if (1 : Nat) = 1 then 0 else _; rw [if_pos rfl]
    | ⟨2, _⟩ => show 0 = if (1 : Nat) = 1 then 0 else _; rw [if_pos rfl])).trans ?_
  rw [shapeCast_self]
  refine (shapeCast_apply _ shapeCasts_S1x1_S1x1x1 (ix3 (0 : Fin 1) (0 : Fin 1) (0 : Fin 1)) (ix2 (0 : Fin 1) (0 : Fin 1)) (by
    rw [Shape.rowMajor_val_two, Shape.rowMajor_val_three]; rfl)).trans ?_
  exact shapeCast_apply v shapeCasts_S1_S1x1 (ix2 (0 : Fin 1) (0 : Fin 1)) (ix1 (0 : Fin 1)) (by
    rw [Shape.rowMajor_val_one, Shape.rowMajor_val_two]; rfl)

end Layout

/-! ## The stages read at an index, over the extended reals -/

section AtIdeal
open Cert.PairwiseSpec

/-- The lane sum of a 64 × 4096 block at row `r`. -/
theorem laneSum4096_apply (v : FVec Ideal S64x4096 .f32) (r : Fin 64) :
    multiReduction .add [1] S64 v 0x00000000#32 reduces_S64x4096_S64 (.inl rfl) rfl (ix1 r) = ∑ d : Fin 4096, v (ix2 r d) :=
  (Ideal.multiReduction_add_single v 0x00000000#32 reduces_S64x4096_S64 (.inl rfl) rfl (ix1 r)).trans
    (Finset.sum_congr rfl fun d _ => congrArg v (funext fun a => Fin.ext (by match a with | ⟨0, _⟩ => rfl | ⟨1, _⟩ => rfl)))

/-- The lane sum of a 64 × 128 matrix at row `r`. -/
theorem laneSum128_apply (v : FVec Ideal S64x128 .f32) (r : Fin 64) :
    multiReduction .add [1] S64 v 0x00000000#32 reduces_S64x128_S64 (.inl rfl) rfl (ix1 r) = ∑ j : Fin 128, v (ix2 r j) :=
  (Ideal.multiReduction_add_single v 0x00000000#32 reduces_S64x128_S64 (.inl rfl) rfl (ix1 r)).trans
    (Finset.sum_congr rfl fun d _ => congrArg v (funext fun a => Fin.ext (by match a with | ⟨0, _⟩ => rfl | ⟨1, _⟩ => rfl)))

/-- The sublane sum of a 64 × 1 column. -/
theorem sublaneSum_apply (v : FVec Ideal S64x1 .f32) :
    multiReduction .add [0] S1 v 0x00000000#32 reduces_S64x1_S1 (.inl rfl) rfl (ix1 (0 : Fin 1)) = ∑ r : Fin 64, v (ix2 r (0 : Fin 1)) :=
  (Ideal.multiReduction_add_single v 0x00000000#32 reduces_S64x1_S1 (.inl rfl) rfl (ix1 (0 : Fin 1))).trans
    (Finset.sum_congr rfl fun d _ => congrArg v (funext fun a => Fin.ext (by match a with | ⟨0, _⟩ => rfl | ⟨1, _⟩ => rfl)))

/-- The block's self term at row `r`: `Σ_d x[r,d]·log x[r,d]`. -/
theorem selfCol_apply (x : Vec Ideal S64x4096 .f32) (r : Fin 64) :
    selfCol x (ix2 r (0 : Fin 1)) = ∑ d : Fin 4096, x (ix2 r d) * Ideal.log (x (ix2 r d)) := by
  unfold selfCol
  exact (column_apply _ r).trans (laneSum4096_apply _ r)

/-- Where the contraction reads its two operands: the left at `(r, k)`, the right at `(j, k)`. -/
theorem lhs_0 (i : S64x128.Idx) (q : dot_S64x4096_S128x4096_S64x128_1_1_0_0_n_n.contr.Idx) : (dot_S64x4096_S128x4096_S64x128_1_1_0_0_n_n.lhsIdx i q 0).val = (i 0).val := by
  unfold DotDims.lhsIdx
  rw [dif_neg (show ¬(0 : Fin S64x4096.rank) ∈ dot_S64x4096_S128x4096_S64x128_1_1_0_0_n_n.lhsBatch by decide), dif_pos (show (0 : Fin S64x4096.rank) ∈ dot_S64x4096_S128x4096_S64x128_1_1_0_0_n_n.lhsNonContracting by decide)]
  rfl
theorem lhs_1 (i : S64x128.Idx) (q : dot_S64x4096_S128x4096_S64x128_1_1_0_0_n_n.contr.Idx) : (dot_S64x4096_S128x4096_S64x128_1_1_0_0_n_n.lhsIdx i q 1).val = (q ⟨0, by decide⟩).val :=
  dot_S64x4096_S128x4096_S64x128_1_1_0_0_n_n.lhsIdx_val_of_single rfl i q
theorem rhs_0 (i : S64x128.Idx) (q : dot_S64x4096_S128x4096_S64x128_1_1_0_0_n_n.contr.Idx) : (dot_S64x4096_S128x4096_S64x128_1_1_0_0_n_n.rhsIdx i q 0).val = (i 1).val := by
  unfold DotDims.rhsIdx
  rw [dif_neg (show ¬(0 : Fin S128x4096.rank) ∈ dot_S64x4096_S128x4096_S64x128_1_1_0_0_n_n.rhsBatch by decide), dif_pos (show (0 : Fin S128x4096.rank) ∈ dot_S64x4096_S128x4096_S64x128_1_1_0_0_n_n.rhsNonContracting by decide)]
  rfl
theorem rhs_1 (i : S64x128.Idx) (q : dot_S64x4096_S128x4096_S64x128_1_1_0_0_n_n.contr.Idx) : (dot_S64x4096_S128x4096_S64x128_1_1_0_0_n_n.rhsIdx i q 1).val = (q ⟨0, by decide⟩).val :=
  dot_S64x4096_S128x4096_S64x128_1_1_0_0_n_n.rhsIdx_val_of_single rfl i q

/-- The cross term at `(r, j)`: `Σ_d x[r,d]·log z[j,d]`. -/
theorem crossMat_apply (x : Vec Ideal S64x4096 .f32) (z : Vec Ideal S128x4096 .f32) (r : Fin 64) (j : Fin 128) :
    crossMat x z (ix2 r j) = ∑ d : Fin 4096, x (ix2 r d) * Ideal.log (z (ix2 j d)) := by
  unfold crossMat
  refine (Ideal.matmul_constant_zero_apply dot_S64x4096_S128x4096_S64x128_1_1_0_0_n_n none _ _ (ix2 r j)).trans ?_
  rw [← Equiv.sum_comp (contrEquiv1 dot_S64x4096_S128x4096_S64x128_1_1_0_0_n_n 4096 rfl rfl).symm]
  refine Finset.sum_congr rfl fun k _ => ?_
  have hk := contrEquiv1_symm_val dot_S64x4096_S128x4096_S64x128_1_1_0_0_n_n 4096 rfl rfl k
  have el : dot_S64x4096_S128x4096_S64x128_1_1_0_0_n_n.lhsIdx (ix2 r j) ((contrEquiv1 dot_S64x4096_S128x4096_S64x128_1_1_0_0_n_n 4096 rfl rfl).symm k) = ix2 r k := funext fun a => Fin.ext (by
    match a with
    | ⟨0, _⟩ => exact lhs_0 _ _
    | ⟨1, _⟩ => exact (lhs_1 _ _).trans hk)
  have er : dot_S64x4096_S128x4096_S64x128_1_1_0_0_n_n.rhsIdx (ix2 r j) ((contrEquiv1 dot_S64x4096_S128x4096_S64x128_1_1_0_0_n_n 4096 rfl rfl).symm k) = ix2 j k := funext fun a => Fin.ext (by
    match a with
    | ⟨0, _⟩ => exact rhs_0 _ _
    | ⟨1, _⟩ => exact (rhs_1 _ _).trans hk)
  rw [el, er]
  rfl

/-- The divergence of the block's row `r` from the table's row `j`. -/
theorem divMat_apply (x : Vec Ideal S64x4096 .f32) (z : Vec Ideal S128x4096 .f32) (r : Fin 64) (j : Fin 128) :
    divMat x z (ix2 r j)
      = (∑ d : Fin 4096, x (ix2 r d) * Ideal.log (x (ix2 r d))) - ∑ d : Fin 4096, x (ix2 r d) * Ideal.log (z (ix2 j d)) := by
  unfold divMat
  show broadcastTo S64x128 (selfCol x) broadcasts_S64x1_S64x128 (ix2 r j) - crossMat x z (ix2 r j) = _
  rw [lanes_apply, selfCol_apply, crossMat_apply]

/-- When the blocks `x7`, `x9` are the rows of half `t` of the tables `x0`, `x1`, the block's entry `(r, j)` is the
    specification's gap at the pair `(rowOf t r, j)`. -/
theorem gapMat_apply (x0 x1 : Vec Ideal S128x4096 .f32) (x7 x9 : Vec Ideal S64x4096 .f32) (t : Fin 2)
    (h7 : ∀ (r : Fin 64) (d : Fin 4096), x7 (ix2 r d) = x0 (ix2 (rowOf t r) d))
    (h9 : ∀ (r : Fin 64) (d : Fin 4096), x9 (ix2 r d) = x1 (ix2 (rowOf t r) d)) (r : Fin 64) (j : Fin 128) :
    gapMat x0 x1 x7 x9 (ix2 r j) = gap x0 x1 (rowOf t r) j := by
  unfold gapMat
  show max (divMat x7 x0 (ix2 r j) - divMat x9 x1 (ix2 r j)) (-(divMat x7 x0 (ix2 r j) - divMat x9 x1 (ix2 r j))) = _
  rw [divMat_apply, divMat_apply]
  simp only [h7, h9]
  rfl

/-- A 64 × 128 matrix summed along its lanes, then its sublanes, is the double sum of its entries. -/
theorem blockSum_apply (g : FVec Ideal S64x128 .f32) : blockSum g (ix1 (0 : Fin 1)) = ∑ r : Fin 64, ∑ j : Fin 128, g (ix2 r j) := by
  unfold blockSum
  refine (sublaneSum_apply _).trans (Finset.sum_congr rfl fun r _ => ?_)
  exact (column_apply _ r).trans (laneSum128_apply g r)

/-- WHAT THE BODY STORES: at every index of its 8 × 128 tile, the total of half `t`'s gaps. -/
theorem pay_apply (x0 x1 : Vec Ideal S128x4096 .f32) (x7 x9 : Vec Ideal S64x4096 .f32) (t : Fin 2)
    (h7 : ∀ (r : Fin 64) (d : Fin 4096), x7 (ix2 r d) = x0 (ix2 (rowOf t r) d))
    (h9 : ∀ (r : Fin 64) (d : Fin 4096), x9 (ix2 r d) = x1 (ix2 (rowOf t r) d)) (y : S1x8x128.Idx) :
    k0_pay1 x0 x1 x7 x9 y = halfTotal x0 x1 t := by
  rw [pay_eq]
  unfold spread
  refine (tile_apply _ y).trans ?_
  refine (blockSum_apply _).trans ?_
  unfold halfTotal
  exact Finset.sum_congr rfl fun r _ => Finset.sum_congr rfl fun j _ => gapMat_apply x0 x1 x7 x9 t h7 h9 r j

end AtIdeal

end Cert.KernelIdeal.Payload

end
-- ==== Proof.RegionResult.lean ====
/-
  What the region leaves in its result array.

  The grid has two points.  Point `t` holds both whole tables and reads its own 64 rows of each again at row
  offset `64·t`; it stores the total of half `t`'s gaps, spread over the 8 × 128 tile `(t, ·, ·)` of the
  2 × 8 × 128 result array.  The two tiles cover the array, so after the run the array holds, at `(t, ·, ·)`,
  the total of half `t`.
-/
import proofs.«182119_j53927609369064_2_alg».proof.Proof.Gen.KernelIdeal.Frame
import proofs.«182119_j53927609369064_2_alg».proof.Proof.BlockPayload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.Payload Cert.PairwiseSpec Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The half of the tables a grid point works on: its one coordinate. -/
def halfOf (i : grid0.Coords) : Fin 2 := ⟨(i 0).val, (i 0).isLt⟩

/-! ## What the body leaves in the output's staging buffer -/

section AnyInstance
variable {F : FTy → Type} [FloatOps F]

/-- The body's one store covers the staging buffer, so the buffer ends at the store's value: the payload of the two
    whole tables and of their 64-row blocks at the point's row offset. -/
theorem stored_eq (c : Dev nD) (i : grid0.Coords) (a1 : Memref sig .tc .vmem S128x4096 .f32) (h1 : a1.IsWhole)
    (a2 : Memref sig .tc .vmem S128x4096 .f32) (h2 : a2.IsWhole) (a3 : Memref sig .tc .vmem S1x8x128 .f32) (h3 : a3.IsWhole)
    (x0 x1 : Vec F S128x4096 .f32) :
    out0_A_2 c i a1 h1 a2 h2 a3 h3 x0 x1
      = k0_pay1 x0 x1 (View.ld x0 (Rect.unit (s := S128x4096) (k0_off1 i) S64x4096.size (k0_off1_inb i)))
          (View.ld x1 (Rect.unit (s := S128x4096) (k0_off1 i) S64x4096.size (k0_off1_inb i))) := by
  unfold out0_A_2
  rw [View.read_writes_eq_canon _ _ _ (cover0_A_2 c i a1 h1 a2 h2 a3 h3 x0 x1)]
  unfold kernelRun0_A
  dsimp only
  rw [View.canon_unit_zero hz3]
  simp only [View.readAt_eq_ld, h1.read_unread, h2.read_unread, View.ld_unit_zero (S := S128x4096) hz2]

end AnyInstance

/-- The 64-row block a point reads at its row offset is rows `64·t …` of the table: row `r` of the block is row
    `rowOf t r` of the table. -/
theorem ld_rows (x : Vec Ideal S128x4096 .f32) (i : grid0.Coords) (r : Fin 64) (d : Fin 4096) :
    View.ld x (Rect.unit (s := S128x4096) (k0_off1 i) S64x4096.size (k0_off1_inb i)) (ix2 r d) = x (ix2 (rowOf (halfOf i) r) d) := by
  show x ((Rect.unit (s := S128x4096) (k0_off1 i) S64x4096.size (k0_off1_inb i)).emb (ix2 r d)) = _
  refine congrArg x (funext fun a => Fin.ext ?_)
  have e0 : k0_off1 i 0 = 64 * (i 0).val := congrFun (k0_off1_eq i) 0
  have e1 : k0_off1 i 1 = 0 := congrFun (k0_off1_eq i) 1
  rw [Rect.emb_apply, Rect.off_unit, Rect.stride_unit]
  match a with
  | ⟨0, _⟩ => show k0_off1 i 0 + 1 * r.val = 64 * (i 0).val + r.val; omega
  | ⟨1, _⟩ => show k0_off1 i 1 + 1 * d.val = d.val; omega

/-! ## The blocks and the array -/

variable (m : (ℓ : Loc nD τ sig) → Buf (Elt Ideal) ℓ) (ρ : Dev nD → PrngReg)

/-- The two argument tables as the region finds them. -/
abbrev tableX (c : Dev nD) : Cert.PairwiseSpec.Table := (V m c main_arg0 : S128x4096.Idx → EReal)
abbrev tableY (c : Dev nD) : Cert.PairwiseSpec.Table := (V m c main_arg1 : S128x4096.Idx → EReal)

/-- What the region leaves in its result array: at `(t, ·, ·)`, the total of half `t`'s gaps. -/
def partials (X Y : Cert.PairwiseSpec.Table) : S2x8x128.Idx → EReal := fun i => halfTotal X Y ⟨(i 0).val, (i 0).isLt⟩

/-- The printed index maps, decided over the two points: both inputs' one block is the whole table at every point;
    the output's block at point `t` is tile `t`; the point's coordinate is its number. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ ((grid0.coords t) 0).val = t.val :=
  (by decide +kernel : ∀ t : Fin grid0.N, _)

/-- Every tile of the result array is some point's. -/
theorem idx_onto : ∀ q : Fin 2, ∃ t : Fin cfg0.N, win0_2.index t = ![q.val, 0, 0] :=
  (by decide +kernel : ∀ q : Fin 2, ∃ t : Fin grid0.N, win0_2.index t = ![q.val, 0, 0])

/-- The first input's block at any point is the first table. -/
theorem iblk0_apply (c : Dev nD) (t : Fin cfg0.N) (x : S128x4096.Idx) :
    (iblk m c 0 t : Vec Ideal S128x4096 .f32) x = tableX m c x := by
  obtain ⟨e0, e1, -⟩ := idx_facts t
  unfold iblk
  rw [View.read_apply]
  show V m c main_arg0 _ = V m c main_arg0 x
  refine congrArg (V m c main_arg0) (funext fun a => Fin.ext ?_)
  match a with
  | ⟨0, _⟩ => show win0_0.index t (0 : Fin 2) * 128 + 1 * (x 0).val = (x 0).val; rw [e0]; omega
  | ⟨1, _⟩ => show win0_0.index t (1 : Fin 2) * 4096 + 1 * (x 1).val = (x 1).val; rw [e1]; omega

/-- The second input's block at any point is the second table. -/
theorem iblk1_apply (c : Dev nD) (t : Fin cfg0.N) (x : S128x4096.Idx) :
    (iblk m c 1 t : Vec Ideal S128x4096 .f32) x = tableY m c x := by
  obtain ⟨-, -, e2, e3, -⟩ := idx_facts t
  unfold iblk
  rw [View.read_apply]
  show V m c main_arg1 _ = V m c main_arg1 x
  refine congrArg (V m c main_arg1) (funext fun a => Fin.ext ?_)
  match a with
  | ⟨0, _⟩ => show win0_1.index t (0 : Fin 2) * 128 + 1 * (x 0).val = (x 0).val; rw [e2]; omega
  | ⟨1, _⟩ => show win0_1.index t (1 : Fin 2) * 4096 + 1 * (x 1).val = (x 1).val; rw [e3]; omega

/-- WHAT POINT `t` WRITES BACK is tile `t` of `partials` of the two tables. -/
theorem flushed_eq (c : Dev nD) (t : Fin cfg0.N) :
    (dats m 0 c).flushed 2 t = ((cfg0.win 2).blk t).view.read (Elt Ideal) (partials (tableX m c) (tableY m c)) := by
  obtain ⟨-, -, -, -, e4, -, -, e7⟩ := idx_facts t
  show (cfg0.win 2).cut (grid0.coords t) ((dats m 0 c).after 2 t) = _
  rw [after0_2]
  unfold outsAt0
  rw [stored_eq]
  funext y
  rw [View.read_apply]
  show k0_pay1 (iblk m c 0 t) (iblk m c 1 t)
        (View.ld (iblk m c 0 t) (Rect.unit (s := S128x4096) (k0_off1 (grid0.coords t)) S64x4096.size (k0_off1_inb (grid0.coords t))))
        (View.ld (iblk m c 1 t) (Rect.unit (s := S128x4096) (k0_off1 (grid0.coords t)) S64x4096.size (k0_off1_inb (grid0.coords t)))) y
      = partials (tableX m c) (tableY m c) (((cfg0.win 2).blk t).view.emb y)
  refine (pay_apply (iblk m c 0 t) (iblk m c 1 t) _ _ (halfOf (grid0.coords t))
    (fun r d => ld_rows (iblk m c 0 t) (grid0.coords t) r d) (fun r d => ld_rows (iblk m c 1 t) (grid0.coords t) r d) y).trans ?_
  rw [show (iblk m c 0 t : Vec Ideal S128x4096 .f32) = tableX m c from funext (iblk0_apply m c t),
    show (iblk m c 1 t : Vec Ideal S128x4096 .f32) = tableY m c from funext (iblk1_apply m c t)]
  unfold partials
  refine congrArg (halfTotal (tableX m c) (tableY m c)) (Fin.ext ?_)
  have hy : (y 0).val < 1 := (y 0).isLt
  show ((grid0.coords t) 0).val = win0_2.index t (0 : Fin 3) * 1 + 1 * (y 0).val
  rw [e7, e4]; omega

/-- An index of the result array is in point `t`'s tile iff each coordinate is in the tile's range on its axis. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- THE RESULT ARRAY after the run: the two tiles cover it, so it holds `partials` of the two tables. -/
theorem final (c : Dev nD) : (dats m 0 c).arrAt 2 cfg0.N = partials (tableX m c) (tableY m c) :=
  (dats m 0 c).arrAt_eq_of_cover 2 (partials (tableX m c) (tableY m c)) (fun t _ => flushed_eq m c t) (fun i => by
    have h0 : (i 0).val < 2 := (i 0).isLt
    have h1 : (i 1).val < 8 := (i 1).isLt
    have h2 : (i 2).val < 128 := (i 2).isLt
    obtain ⟨t, ht⟩ := idx_onto ⟨(i 0).val, h0⟩
    have q0 : win0_2.index t (0 : Fin 3) = (i 0).val := congrFun ht 0
    have q1 : win0_2.index t (1 : Fin 3) = 0 := congrFun ht 1
    have q2 : win0_2.index t (2 : Fin 3) = 0 := congrFun ht 2
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 8 ≤ (i 1).val ∧ (i 1).val < win0_2.index t (1 : Fin 3) * 8 + 8; omega
    | ⟨2, _⟩ => show win0_2.index t (2 : Fin 3) * 128 ≤ (i 2).val ∧ (i 2).val < win0_2.index t (2 : Fin 3) * 128 + 128; omega)

end Cert.KernelIdeal.Region

end
-- ==== Proof.KernelRun.lean ====
/-
  The whole idealized kernel program, run and read.

  After the region, the host takes entry `(t, 0, 0)` of each of the two tiles of the region's result array, adds the
  two from zero, adds the constant and divides.  With the region's array at the two halves' totals, the program's
  result is `(c + (0 + (half 0 + half 1))) / K`.
-/
import proofs.«182119_j53927609369064_2_alg».proof.Proof.RegionResult
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Region Cert.PairwiseSpec Idealize.ShloMosaic.ValueIdx

/-! ## The host operations after the region, as one function of the region's result array -/

/-- The tail: slice out the tiles' first entries, view the 2 × 1 × 1 result as two numbers, add them from zero, add the
    constant, divide. -/
def tail (A : (⟨S2x8x128, .f32⟩ : BufTy).Contents (Elt Ideal)) : (⟨S_, .f32⟩ : BufTy).Contents (Elt Ideal) :=
  Host.divf (F := Ideal)
    (addf (constant (F := Ideal) S_ .f32 0x38D1B717#32)
      (Host.reduceAdd (F := Ideal)
        (shapeCast S2 (extractStridedSlice S2x1x1 ![0, 0, 0] A slices_S2x8x128_S2x1x1_0_0_0) shapeCasts_S2x1x1_S2)
        (constant (F := Ideal) S_ .f32 0x00000000#32) reducesTo_S2_S_d0 h_S_))
    (constant (F := Ideal) S_ .f32 0x46800000#32)

/-- A two-entry vector's indices are its one coordinate's two values … -/
def pairEquiv : S2.Idx ≃ Fin 2 where
  toFun i := i 0
  invFun k := ix1 k
  left_inv i := (eq_ix1 i).symm
  right_inv _ := rfl

/-- … so a sum over them is the sum over the coordinate. -/
theorem sum_pair (Z : S2.Idx → EReal) : ∑ i, Z i = ∑ k : Fin 2, Z (ix1 k) :=
  (Equiv.sum_comp pairEquiv.symm Z).symm

/-- The host's sum of two numbers from zero. -/
theorem pairSum_apply (Z : FVec Ideal S2 .f32) (i : S_.Idx) :
    Host.reduceAdd (F := Ideal) Z (constant (F := Ideal) S_ .f32 0x00000000#32) reducesTo_S2_S_d0 h_S_ i
      = Ideal.ofBits .f32 0x00000000#32 + ∑ k : Fin 2, Z (ix1 k) := by
  simp only [Host.reduceAdd, Ideal.hostReduceAdd_def]
  rw [Ideal.hostReduceAdd_total reducesTo_S2_S_d0 (fun b => b.elim0)]
  exact congrArg (_ + ·) (sum_pair Z)

/-- Entry `k` of the two numbers is entry `(k, 0, 0)` of the array. -/
theorem firstOfTile_apply {α : Type} (A : S2x8x128.Idx → α) (k : Fin 2) :
    shapeCast S2 (extractStridedSlice S2x1x1 ![0, 0, 0] A slices_S2x8x128_S2x1x1_0_0_0) shapeCasts_S2x1x1_S2 (ix1 k)
      = A (ix3 k (0 : Fin 8) (0 : Fin 128)) := by
  refine (shapeCast_apply _ shapeCasts_S2x1x1_S2 (ix1 k) (ix3 k (0 : Fin 1) (0 : Fin 1)) (by
    rw [Shape.rowMajor_val_one, Shape.rowMajor_val_three]
    show (k.val * 1 + 0) * 1 + 0 = k.val
    omega)).trans ?_
  exact extractStridedSlice_apply _ A slices_S2x8x128_S2x1x1_0_0_0 (ix3 k (0 : Fin 1) (0 : Fin 1)) (ix3 k (0 : Fin 8) (0 : Fin 128)) (fun a => by
    match a with
    | ⟨0, _⟩ => show k.val = 0 + k.val; omega
    | ⟨1, _⟩ => show 0 = 0 + 0; rfl
    | ⟨2, _⟩ => show 0 = 0 + 0; rfl)

/-- The tail of an array is the loss formed from its two tiles' first entries. -/
theorem tail_apply (A : (⟨S2x8x128, .f32⟩ : BufTy).Contents (Elt Ideal)) (i : S_.Idx) :
    tail A i = lossOf (∑ k : Fin 2, A (ix3 k (0 : Fin 8) (0 : Fin 128))) := by
  unfold tail lossOf
  show Ideal.div (Ideal.ofBits .f32 0x38D1B717#32
      + Host.reduceAdd (F := Ideal)
          (shapeCast S2 (extractStridedSlice S2x1x1 ![0, 0, 0] A slices_S2x8x128_S2x1x1_0_0_0) shapeCasts_S2x1x1_S2)
          (constant (F := Ideal) S_ .f32 0x00000000#32) reducesTo_S2_S_d0 h_S_ i)
    (Ideal.ofBits .f32 0x46800000#32) = _
  rw [pairSum_apply]
  simp only [firstOfTile_apply]

/-! ## The run -/

variable (m : (ℓ : Loc nD τ sig) → Buf (Elt Ideal) ℓ) (ρ : Dev nD → PrngReg)

/-- What the lines after the region leave in the program's result: the tail of the region's array. -/
theorem result_eq (c : Dev nD) :
    Pipeline.afterTail₀ cfgs (dats m) 0 (V0 m) [hostOps1] c main_v5 = tail (partials (tableX m c) (tableY m c)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v0)
      = partials (tableX m c) (tableY m c) :=
    (Pipeline.withArrays_arr spec0 launch0.win.arr_inj c _ _ 2).trans (final m c)
  show tail (Pipeline.withArrays (cfgs 0).spec c (V0 m c) (fun w => (dats m 0 c).arrAt w (cfgs 0).N) (Proc.tc.devRef main_v0)) = _
  exact congrArg tail e

/-- The tail of the two halves' totals is the loss of the two tables: the halves' totals add up to the total. -/
theorem tail_partials (X Y : Cert.PairwiseSpec.Table) : tail (partials X Y) = fun _ => loss X Y := by
  funext i
  rw [tail_apply]
  unfold loss
  rw [total_eq_halves]
  rfl

/-- THE RUN, READ: every weakly fair execution of the idealized kernel program terminates with its result at the loss of
    the two argument tables, the arguments unchanged. -/
theorem run : θ_run defs (onTc (τ := τ) (main (F := Ideal))) ⟨m, fun _ => 0, ρ⟩ fun r => ∀ c : Dev nD,
      r.2.mem ((c.tc : Thread nD τ).loc main_v5)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v5 (Pipeline.mem_restRefs_of main_v5 rfl (by decide))).trans
          ((result_eq m c).trans (tail_partials (tableX m c) (tableY m c))),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Whole

end
-- ==== Proof.ReferenceValue.lean ====
/-
  The reference's result is the specification's loss.

  The reference computes, for each table, the 128 row sums `Σ_d X[r,d]·log X[r,d]` and the 128 × 128 products
  `Σ_d X[r,d]·log X[j,d]` (a contraction against the transposed logarithms), subtracts, takes the absolute
  difference of the two tables' matrices, sums all 128 × 128 entries at once from zero, adds the constant and
  divides.  Read stage by stage at an index, that is `loss` of the two tables.
-/
import proofs.«182119_j53927609369064_2_alg».proof.Proof.Gen.ReferenceIdeal.Read
import proofs.«182119_j53927609369064_2_alg».proof.Proof.PairwiseSpec
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read Cert.PairwiseSpec
open Idealize.ShloMosaic Idealize.ShloMosaic.ValueIdx

/-! ## Where each stage reads its operand: the composed index maps, coordinate by coordinate -/

theorem idx_self0 (a b : Fin 128) (k : Fin 4096) : idx_main_v2 (idx_main_v5 (idx_main_v6 (ix2 a b))) k = ix2 a k :=
  funext fun d => Fin.ext (by match d with | ⟨0, _⟩ => rfl | ⟨1, _⟩ => rfl)
theorem idx_lhs0 (a b : Fin 128) (k : Fin 4096) : lidx_main_v4 (ix2 a b) k = ix2 a k :=
  funext fun d => Fin.ext (by match d with | ⟨0, _⟩ => rfl | ⟨1, _⟩ => rfl)
theorem idx_rhs0 (a b : Fin 128) (k : Fin 4096) : idx_main_v3 (ridx_main_v4 (ix2 a b) k) = ix2 b k :=
  funext fun d => Fin.ext (by match d with | ⟨0, _⟩ => rfl | ⟨1, _⟩ => rfl)
theorem idx_self1 (a b : Fin 128) (k : Fin 4096) : idx_main_v10 (idx_main_v13 (idx_main_v14 (ix2 a b))) k = ix2 a k :=
  funext fun d => Fin.ext (by match d with | ⟨0, _⟩ => rfl | ⟨1, _⟩ => rfl)
theorem idx_lhs1 (a b : Fin 128) (k : Fin 4096) : lidx_main_v12 (ix2 a b) k = ix2 a k :=
  funext fun d => Fin.ext (by match d with | ⟨0, _⟩ => rfl | ⟨1, _⟩ => rfl)
theorem idx_rhs1 (a b : Fin 128) (k : Fin 4096) : idx_main_v11 (ridx_main_v12 (ix2 a b) k) = ix2 b k :=
  funext fun d => Fin.ext (by match d with | ⟨0, _⟩ => rfl | ⟨1, _⟩ => rfl)

/-! ## The stages -/

/-- The first table's matrix entry `(a, b)` is the divergence of its row `a` from its row `b`. -/
theorem div0 (x0 : (⟨S128x4096, .f32⟩ : BufTy).Contents (Elt Ideal)) (a b : Fin 128) :
    val_main_v7 (F := Ideal) x0 (ix2 a b) = divergence x0 a b := by
  rw [val_main_v7_apply, val_main_v6_apply, val_main_v5_apply, val_main_v2_apply, val_main_v4_apply]
  simp only [val_main_v1_apply, val_main_v0_apply, val_main_v3_apply, val_main_cst_apply, idx_self0, idx_lhs0, idx_rhs0,
    Ideal.subf_def, Ideal.mulf_def, Ideal.hostUnary_log_def, Ideal.ofBits_def, Ideal.ofBits_zero_f32, zero_add]
  rfl

/-- The second table's likewise. -/
theorem div1 (x1 : (⟨S128x4096, .f32⟩ : BufTy).Contents (Elt Ideal)) (a b : Fin 128) :
    val_main_v15 (F := Ideal) x1 (ix2 a b) = divergence x1 a b := by
  rw [val_main_v15_apply, val_main_v14_apply, val_main_v13_apply, val_main_v10_apply, val_main_v12_apply]
  simp only [val_main_v9_apply, val_main_v8_apply, val_main_v11_apply, val_main_cst_0_apply, idx_self1, idx_lhs1, idx_rhs1,
    Ideal.subf_def, Ideal.mulf_def, Ideal.hostUnary_log_def, Ideal.ofBits_def, Ideal.ofBits_zero_f32, zero_add]
  rfl

/-- The absolute difference at `(a, b)` is the specification's gap. -/
theorem gap_eq (x0 x1 : (⟨S128x4096, .f32⟩ : BufTy).Contents (Elt Ideal)) (a b : Fin 128) :
    val_main_v17 (F := Ideal) x0 x1 (ix2 a b) = gap x0 x1 a b := by
  rw [val_main_v17_apply, val_main_v16_apply, div0, div1]
  rfl

/-- THE REFERENCE'S RESULT is the loss of the two tables. -/
theorem loss_eq (x0 x1 : (⟨S128x4096, .f32⟩ : BufTy).Contents (Elt Ideal)) (i : S_.Idx) :
    val_main_v20 (F := Ideal) x0 x1 i = loss x0 x1 := by
  rw [val_main_v20_apply, val_main_v19_apply, val_main_v18_apply, sum_idx2]
  simp only [gap_eq]
  rfl

end Cert.ReferenceIdeal.Hand

end
-- ==== Proof.lean ====
/-
  The certificate's five claims.

  The kernel computes, for two tables X, Y of 128 rows of 4096 numbers, the loss
      (c + Σ_{r,j} |D_X(r,j) − D_Y(r,j)|) / K,   D_X(r,j) = Σ_d X[r,d]·log X[r,d] − Σ_d X[r,d]·log X[j,d],
  in two grid points of 64 rows each, each point summing its 64 × 128 gaps along lanes and then sublanes, and the
  host adding the two partial sums; the reference forms all 128 × 128 gaps and sums them at once.  Over the
  extended reals every operation is exact and a change of float format is the identity, so the two programs
  differ only in how one sum is grouped; addition there is commutative and associative, and the results agree for
  all entries (the finiteness precondition is never opened).

  Both kernel programs' frames and the reference's run are the generated ones; nothing was rewritten by the
  idealization, so `preserves` is trivial.
-/
import proofs.«182119_j53927609369064_2_alg».proof.Defs
import proofs.«182119_j53927609369064_2_alg».proof.Proof.Gen.Kernel
import proofs.«182119_j53927609369064_2_alg».proof.Proof.Gen.Kernel.Skeleton
import proofs.«182119_j53927609369064_2_alg».proof.Proof.Gen.Kernel.Launch
import proofs.«182119_j53927609369064_2_alg».proof.Proof.Gen.Kernel.Points
import proofs.«182119_j53927609369064_2_alg».proof.Proof.Gen.Kernel.Frame
import proofs.«182119_j53927609369064_2_alg».proof.Proof.Gen.KernelIdeal
import proofs.«182119_j53927609369064_2_alg».proof.Proof.Gen.KernelIdeal.Skeleton
import proofs.«182119_j53927609369064_2_alg».proof.Proof.Gen.KernelIdeal.Launch
import proofs.«182119_j53927609369064_2_alg».proof.Proof.Gen.KernelIdeal.Points
import proofs.«182119_j53927609369064_2_alg».proof.Proof.Gen.KernelIdeal.Frame
import proofs.«182119_j53927609369064_2_alg».proof.Proof.Gen.ReferenceIdeal
import proofs.«182119_j53927609369064_2_alg».proof.Proof.Gen.ReferenceIdeal.Run
import proofs.«182119_j53927609369064_2_alg».proof.Proof.Gen.ReferenceIdeal.Read
import proofs.«182119_j53927609369064_2_alg».proof.Proof.PairwiseSpec
import proofs.«182119_j53927609369064_2_alg».proof.Proof.KernelRun
import proofs.«182119_j53927609369064_2_alg».proof.Proof.ReferenceValue
import proofs.«182119_j53927609369064_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the loss of the two argument tables: the kernel's as the sum of its two halves'
    totals, the reference's as the total over all pairs. -/
theorem algebraic : Cert.algebraic_KernelIdeal_ReferenceIdeal := by
  intro m ρ m' ρ' _ hagree
  refine ⟨fun c _ => Cert.PairwiseSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, (hagree c).1, (hagree c).2]
  exact funext fun i => Cert.ReferenceIdeal.Hand.loss_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
